-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S_ : Shape := ⟨0, ![]⟩
abbrev S100000 : Shape := ⟨1, ![100000]⟩
abbrev S1x1600000 : Shape := ⟨2, ![1, 1600000]⟩
abbrev S1600000x1 : Shape := ⟨2, ![1600000, 1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  slices_S2x1600000_S1x1600000_1_0 : S2x1600000.Slices ![1, 0] S1x1600000
  shapeCasts_S1x1600000_S1600000 : S1x1600000.ShapeCasts S1600000
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part1 {F : FTy → Type} [FloatOps F] (main_arg1 : IVec S2x1600000 32) (main_arg2 : FVec F S1600000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_cst_6 : FVec F S_ .f32 := constant S_ .f32 0x00000000#32
  let main_v19 : FVec F S100000 .f32 := broadcastInDim S100000 ![] bcast_S_S100000 main_cst_6
  let main_v20 : IVec S1x1600000 32 := (extractStridedSlice S1x1600000 ![1, 0] · slices_S2x1600000_S1x1600000_1_0) main_arg1
  let main_v21 : IVec S1600000 32 := shapeCast S1600000 main_v20 shapeCasts_S1x1600000_S1600000
  let main_v22 : IVec S1600000x1 32 := broadcastInDim S1600000x1 ![0] bcast_S1600000_S1600000x1_0 main_v21
  let main_v23 : FVec F S100000 .f32 := (fun x i u => Host.scatterAdd scatter_S100000_S1600000x1_S1600000_n_0_0_1 x i u) main_v19 main_v22 main_arg2
  let main_cst_7 : FVec F S_ .f32 := constant S_ .f32 0x3F800000#32
  let main_v24 : FVec F S100000 .f32 := broadcastInDim S100000 ![] bcast_S_S100000 main_cst_7
  let main_v25 : FVec F S100000 .f32 := addf main_v23 main_v24
  let main_cst_8 : FVec F S_ .f32 := constant S_ .f32 0x00000000#32
  let main_v26 : FVec F S100000 .f32 := broadcastInDim S100000 ![] bcast_S_S100000 main_cst_8
  let main_v27 : IVec S100000 1 := cmpf .ogt main_v25 main_v26
  let main_c_9 : IVec S_ 1 := constantI S_ 1 1#1
  let main_v28 : IVec S_ 1 := (fun x v => Host.reduce IntOp.andi x v reducesTo_S100000_S_d0 h_S_) main_v27 main_c_9
  let main_v29 : IVec S_ 1 := andi main_v18 main_v28
  main_v29

def fn {F : FTy → Type} [FloatOps F] (main_arg0 : FVec F S100000x64 .f32) (main_arg1 : IVec S2x1600000 32) (main_arg2 : FVec F S1600000 .f32) (main_arg3 : FVec F S64x64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S10000x64 : Shape := ⟨2, ![10000, 64]⟩

abbrev nBuf : Space → Nat
  | .hbm => 80
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .f32⟩
  | .hbm, ⟨26, _⟩ => ⟨S1600000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S100000, .f32⟩
  | .hbm, ⟨38, _⟩ => ⟨S1600000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1600000x1, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x64, .f32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v43) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S1600000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S1600000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000, .f32⟩
  | .hbm, ⟨72, _⟩ => ⟨S1600000, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S1600000, .f32⟩
  | .hbm, ⟨83, _⟩ => ⟨S1600000x1, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000x64, .f32⟩
  | .hbm, ⟨106, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_11 : Ref sig .tc := ⟨.hbm, 84, rfl⟩
abbrev main_v64 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call1_cst : Ref sig .tc := ⟨.hbm, 104, rfl⟩
abbrev main_call1_v0 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run with its result named.

  The program is four segments: host operations, the first launch, host operations, the second launch. The buffer
  contents at each boundary are a fold from the launch memory; the last boundary's contents hold every unscoped buffer
  when the program returns. So every weakly fair execution terminates with the result buffer at the last boundary's
  contents of it, and the argument arrays as launched.
-/
import proofs.«111922_j13589276524780_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v62) = W4 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v62 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Named

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.KBody.lean ====
/-
  The kernel body at an entry, at exact arithmetic.

  Each of the two kernels multiplies a 10000×64 block of rows by the whole 64×64 weight matrix into a zero accumulator
  and takes the maximum with zero. A change of float format is the identity on the extended reals, so entry (p, q) of
  what the body stores is max(Σₖ block(p,k) · weight(k,q), 0).
-/
import proofs.«111922_j13589276524780_1_alg».proof.Proof.Gen.KernelIdeal.Skeleton
import proofs.«111922_j13589276524780_1_alg».proof.Proof.LibDotEntry
import proofs.«111922_j13589276524780_1_alg».proof.Proof.LibMatDims
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- The product of a 10000×64 block by the 64×64 weights into a zero accumulator, at entry (p, q). -/
theorem matmul_entry {φ₁ φ₂ : FTy} (a : FVec Ideal S10000x64 φ₁) (w : FVec Ideal S64x64 φ₂) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) :=
  Cert.Lib.DotEntry.matmul_zero_ix2 dot_S10000x64_S64x64_S10000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) a w p q

/-- The first kernel's stored value at entry (p, q). -/
theorem pay0_entry (x0 : Vec Ideal S10000x64 .f32) (x1 : Vec Ideal S64x64 .f32) (p : Fin 10000) (q : Fin 64) :
    k0_pay1 (F := Ideal) x0 x1 (ix2 p q) = max (∑ k : Fin 64, x0 (ix2 p k) * x1 (ix2 k q)) 0 := by
  unfold k0_pay1
  rw [maximumf_apply, broadcast_apply, matmul_entry]
  simp only [truncf_apply, shapeCast_self]
  exact congrArg (max _) Ideal.ofBits_zero_f32

/-- The second kernel's stored value at entry (p, q). -/
theorem pay1_entry (x0 : Vec Ideal S10000x64 .f32) (x1 : Vec Ideal S64x64 .f32) (p : Fin 10000) (q : Fin 64) :
    k1_pay1 (F := Ideal) x0 x1 (ix2 p q) = max (∑ k : Fin 64, x0 (ix2 p k) * x1 (ix2 k q)) 0 := by
  unfold k1_pay1
  rw [maximumf_apply, broadcast_apply, matmul_entry]
  simp only [truncf_apply, shapeCast_self]
  exact congrArg (max _) Ideal.ofBits_zero_f32

end Cert.KernelIdeal.Body

end
-- ==== Proof.GcnSpec.lean ====
/-
  One dense layer with rectification, as a function of whole arrays: entry (n, j) of relu(a · w) is
  max(Σₖ a(n,k) · w(k,j), 0), over the extended reals.
-/
import Idealize.ShloMosaic.Lib.ValueIdx
import Idealize.ShloMosaic.PureOps.Ideal

noncomputable section

namespace Cert.Gcn

open Idealize.ShloMosaic Idealize.ShloMosaic.ValueIdx

/-- relu(a · w) for a 100000×64 array a and a 64×64 matrix w. -/
def layer (a : (⟨2, ![100000, 64]⟩ : Shape).Idx → EReal) (w : (⟨2, ![64, 64]⟩ : Shape).Idx → EReal) :
    (⟨2, ![100000, 64]⟩ : Shape).Idx → EReal :=
  fun i => max (∑ k : Fin 64, a (ix2 (i 0 : Fin 100000) k) * w (ix2 k (i 1 : Fin 64))) 0

theorem layer_ix2 (a : (⟨2, ![100000, 64]⟩ : Shape).Idx → EReal) (w : (⟨2, ![64, 64]⟩ : Shape).Idx → EReal)
    (n : Fin 100000) (j : Fin 64) :
    layer a w (ix2 n j) = max (∑ k : Fin 64, a (ix2 n k) * w (ix2 k j)) 0 := rfl

end Cert.Gcn

end
-- ==== Proof.KArray.lean ====
/-
  From blocks to arrays: what each of the two kernel launches leaves in its output array.

  A launch walks ten grid points; point t reads rows 10000·t … 10000·t + 9999 of its input array and the whole 64×64
  weight matrix, and writes back the same rows of its output array. The stored block is relu(block · weights) entry by
  entry, which depends on the input's row only: so block t of the output is block t of relu(a · w) of the whole input
  array a, and since the ten blocks tile the array the output array ends as relu(a · w).
-/
import proofs.«111922_j13589276524780_1_alg».proof.Proof.Gen.KernelIdeal.Frame
import proofs.«111922_j13589276524780_1_alg».proof.Proof.KBody
import proofs.«111922_j13589276524780_1_alg».proof.Proof.GcnSpec
import Idealize.ShloMosaic.Lib.ValueIdx
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

open Cert.Gcn (layer)

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The printed block index maps over the grid: the row blocks of the input and of the output move together with the
    grid point, every column block and the weights' block stay at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of relu(a · w), a and w the region's input arrays as it finds them. -/
theorem flushed0_eq (c : Dev nD) (t : Fin cfg0.N) :
    (dat0 V c).flushed 2 t
      = ((cfg0.win 2).blk t).view.read (Elt Ideal) (layer (V c main_v43) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  have ht : t.val < 10 := t.isLt
  funext j
  obtain ⟨p, q, rfl⟩ : ∃ (p : Fin 10000) (q : Fin 64), j = ix2 p q := ⟨j 0, j 1, eq_ix2 j⟩
  have hp : t.val * 10000 + p.val < 100000 := by have := p.isLt; omega
  refine (Cert.KernelIdeal.Body.pay0_entry (iblk0 V c 0 t) (iblk0 V c 1 t) p q).trans ?_
  show _ = layer (V c main_v43) (V c main_arg3) (((cfg0.win 2).blk t).view.emb (ix2 p q))
  have hemb : ((cfg0.win 2).blk t).view.emb (ix2 p q)
      = (ix2 (⟨t.val * 10000 + p.val, hp⟩ : Fin 100000) q : S100000x64.Idx) := by
    funext a; apply Fin.ext
    match a with
    | ⟨0, _⟩ =>
      show win0_2.index t (0 : Fin 2) * 10000 + 1 * p.val = t.val * 10000 + p.val
      omega
    | ⟨1, _⟩ =>
      show win0_2.index t (1 : Fin 2) * 64 + 1 * q.val = q.val
      omega
  rw [hemb]
  unfold Cert.Gcn.layer
  refine congrArg (fun s => max s 0) (Finset.sum_congr rfl fun k _ => ?_)
  have hA : iblk0 V c 0 t (ix2 p k) = V c main_v43 (ix2 (⟨t.val * 10000 + p.val, hp⟩ : Fin 100000) k) := by
    show V c main_v43 (((cfg0.win 0).blk t).view.emb (ix2 p k)) = _
    refine congrArg _ (funext fun a => Fin.ext ?_)
    match a with
    | ⟨0, _⟩ =>
      show win0_0.index t (0 : Fin 2) * 10000 + 1 * p.val = t.val * 10000 + p.val
      omega
    | ⟨1, _⟩ =>
      show win0_0.index t (1 : Fin 2) * 64 + 1 * k.val = k.val
      omega
  have hW : iblk0 V c 1 t (ix2 k q) = V c main_arg3 (ix2 k q) := by
    show V c main_arg3 (((cfg0.win 1).blk t).view.emb (ix2 k q)) = _
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = q.val
      omega
  (rw [hA, hW]) <;> rfl

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v44).slice (win0_2.rect t)).set ↔ _
  rw [View.set_slice_whole, Rect.mem_set_unit]
  exact Iff.rfl

/-- The ten row blocks tile the output array: row r lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < 10 := by omega
  refine ⟨⟨(i 0).val / 10000, hlt⟩, flush0_2 _, ?_⟩
  rw [mem_blk0]
  obtain ⟨e0, e1, e2, e3, e4, e5⟩ := idx_facts0 ⟨(i 0).val / 10000, hlt⟩
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    rw [e5]
    omega

/-- The output array after the region: relu(a · w) of the region's input arrays as it finds them. -/
theorem final0 (c : Dev nD) :
    (dat0 V c).arrAt 2 cfg0.N = layer (V c main_v43) (V c main_arg3) :=
  (dat0 V c).arrAt_eq_of_cover 2 (layer (V c main_v43) (V c main_arg3))
    (fun t _ => flushed0_eq V c t) (cover0)

/-! ## Region 1 -/

/-- The printed block index maps over the grid: the row blocks of the input and of the output move together with the
    grid point, every column block and the weights' block stay at zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of relu(a · w), a and w the region's input arrays as it finds them. -/
theorem flushed1_eq (c : Dev nD) (t : Fin cfg1.N) :
    (dat1 V c).flushed 2 t
      = ((cfg1.win 2).blk t).view.read (Elt Ideal) (layer (V c main_v61) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts1 t
  have ht : t.val < 10 := t.isLt
  funext j
  obtain ⟨p, q, rfl⟩ : ∃ (p : Fin 10000) (q : Fin 64), j = ix2 p q := ⟨j 0, j 1, eq_ix2 j⟩
  have hp : t.val * 10000 + p.val < 100000 := by have := p.isLt; omega
  refine (Cert.KernelIdeal.Body.pay1_entry (iblk1 V c 0 t) (iblk1 V c 1 t) p q).trans ?_
  show _ = layer (V c main_v61) (V c main_arg4) (((cfg1.win 2).blk t).view.emb (ix2 p q))
  have hemb : ((cfg1.win 2).blk t).view.emb (ix2 p q)
      = (ix2 (⟨t.val * 10000 + p.val, hp⟩ : Fin 100000) q : S100000x64.Idx) := by
    funext a; apply Fin.ext
    match a with
    | ⟨0, _⟩ =>
      show win1_2.index t (0 : Fin 2) * 10000 + 1 * p.val = t.val * 10000 + p.val
      omega
    | ⟨1, _⟩ =>
      show win1_2.index t (1 : Fin 2) * 64 + 1 * q.val = q.val
      omega
  rw [hemb]
  unfold Cert.Gcn.layer
  refine congrArg (fun s => max s 0) (Finset.sum_congr rfl fun k _ => ?_)
  have hA : iblk1 V c 0 t (ix2 p k) = V c main_v61 (ix2 (⟨t.val * 10000 + p.val, hp⟩ : Fin 100000) k) := by
    show V c main_v61 (((cfg1.win 0).blk t).view.emb (ix2 p k)) = _
    refine congrArg _ (funext fun a => Fin.ext ?_)
    match a with
    | ⟨0, _⟩ =>
      show win1_0.index t (0 : Fin 2) * 10000 + 1 * p.val = t.val * 10000 + p.val
      omega
    | ⟨1, _⟩ =>
      show win1_0.index t (1 : Fin 2) * 64 + 1 * k.val = k.val
      omega
  have hW : iblk1 V c 1 t (ix2 k q) = V c main_arg4 (ix2 k q) := by
    show V c main_arg4 (((cfg1.win 1).blk t).view.emb (ix2 k q)) = _
    refine congrArg _ (funext fun a => Fin.ext ?_)
    match a with
    | ⟨0, _⟩ =>
      show win1_1.index t (0 : Fin 2) * 64 + 1 * k.val = k.val
      omega
    | ⟨1, _⟩ =>
      show win1_1.index t (1 : Fin 2) * 64 + 1 * q.val = q.val
      omega
  (rw [hA, hW]) <;> rfl

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v62).slice (win1_2.rect t)).set ↔ _
  rw [View.set_slice_whole, Rect.mem_set_unit]
  exact Iff.rfl

/-- The ten row blocks tile the output array: row r lies in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < 10 := by omega
  refine ⟨⟨(i 0).val / 10000, hlt⟩, flush1_2 _, ?_⟩
  rw [mem_blk1]
  obtain ⟨e0, e1, e2, e3, e4, e5⟩ := idx_facts1 ⟨(i 0).val / 10000, hlt⟩
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e5]
    omega

/-- The output array after the region: relu(a · w) of the region's input arrays as it finds them. -/
theorem final1 (c : Dev nD) :
    (dat1 V c).arrAt 2 cfg1.N = layer (V c main_v61) (V c main_arg4) :=
  (dat1 V c).arrAt_eq_of_cover 2 (layer (V c main_v61) (V c main_arg4))
    (fun t _ => flushed1_eq V c t) (cover1)

end Cert.KernelIdeal.Arrays

end
-- ==== Proof.LibRowScatter.lean ====
/-
  ROW GATHER AND ROW SCATTER-ADD OF A MATRIX, READ AT AN ENTRY.

  Both statements are about an [n, c] matrix and an [m, 1] array of row indices (one signed word per entry of the
  list, the index vector's axis being the array's second axis, of size one), with whole rows moved: the matrix's
  row axis 0 is the one the index names (collapsed in the gather, inserted in the scatter), and its column axis 1
  is carried unchanged (the gather's offset axis, the scatter's window axis).

  * `gather_rows`: the gather of the rows of `x` named by `idx` is, at entry (e, k), the entry (r e, k) of `x`,
    where the row map r depends on `idx` alone: r e is the e-th index read as a signed integer and clamped into
    [0, n - 1] (a row slice has size one, and n is positive because a size-one slice fits).
  * `scatterAdd_rows`: the accumulating scatter of the [m, c] update rows `u` into `x` is, at entry (p, k),
    x (p, k) plus the sum of u (e, k) over the update rows e whose target row is p. The target tgt e depends on
    `idx` alone: it is the e-th index read as a signed integer s when 0 ≤ s < n, and there is none otherwise (an
    update row that falls outside the matrix is dropped). The proof reads the result index of update entry
    (e, k') coordinate by coordinate — row s + 0, column 0 + k' —, so that entry lands at (p, k) exactly when
    tgt e = some p and k' = k; the sum over the rank-2 update index set then splits into the double sum over rows
    and columns, and the inner sum over columns keeps the single term k' = k.
-/
import Idealize.ShloMosaic.Lib.ValueIdx
import Idealize.ShloMosaic.PureOps.Ideal

open scoped BigOperators

namespace Cert.Lib.RowScatter

open Idealize.ShloMosaic Idealize.ShloMosaic.ValueIdx

/-- Gathering whole rows: the row-gather x[idx] of an [n,c] matrix by an [m,1] array of row indices reads, at
    entry (e,k), the matrix at (r e, k) for a row map r that depends on the indices only. -/
theorem gather_rows {n c m w : Nat} {α : Type}
    (d : GatherDims (⟨2, ![n, c]⟩ : Shape) (⟨2, ![m, 1]⟩ : Shape) (⟨2, ![m, c]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (idx : IVec (⟨2, ![m, 1]⟩ : Shape) w) :
    ∃ r : Fin m → Fin n, ∀ (x : (⟨2, ![n, c]⟩ : Shape).Idx → α) (e : Fin m) (k : Fin c),
      Host.gather d x idx (ix2 e k) = x (ix2 (r e) k) := by
  have hs0 : d.sliceSizes 0 = 1 := d.slice_collapsed 0 (by rw [hcs]; exact List.mem_singleton.mpr rfl)
  have hn : 0 < n := by
    have := d.slice_le 0
    rw [hs0] at this
    exact this
  obtain ⟨od, cd, ob, sb, sm, iv, ss, wf⟩ := d
  simp only at hod hcs hob hsb hsm hiv hs0
  subst hod hcs hob hsb hsm hiv
  refine ⟨fun e => ⟨min (idx (ix2 e 0)).toInt.toNat (n - 1), by omega⟩, ?_⟩
  intro x e k
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (q : Fin ([0] : List (Fin (⟨2, ![n, c]⟩ : Shape).rank)).length),
        GatherDims.siIdx (⟨[1], [0], [], [], [0], 1, ss, wf⟩ :
          GatherDims (⟨2, ![n, c]⟩ : Shape) (⟨2, ![m, 1]⟩ : Shape) (⟨2, ![m, c]⟩ : Shape)) (ix2 e k) q = ix2 e 0 := by
      intro q
      funext b; refine Fin.ext ?_
      match b with
      | ⟨0, _⟩ => rfl
      | ⟨1, _⟩ =>
        have := q.isLt
        simp only [List.length_singleton] at this
        show q.val = 0
        omega
    rw [hsi]
    show min _ (n - ss 0) = _
    rw [hs0]
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (fun h => absurd (Fin.val_eq_of_eq (List.mem_singleton.mp h)) Nat.one_ne_zero)]
    simp only [Nat.zero_add]
    rfl

/-- Scatter-adding whole rows at the exact instance: entry (p,k) of the result is the operand's entry plus the sum
    of the update rows e whose target row is p, read at column k; the target map (none when the row index is out of
    range) depends on the indices only. -/
theorem scatterAdd_rows {n c m w : Nat}
    (d : ScatterDims (⟨2, ![n, c]⟩ : Shape) (⟨2, ![m, 1]⟩ : Shape) (⟨2, ![m, c]⟩ : Shape))
    (huw : d.updateWindowDims = [1]) (hiw : d.insertedWindowDims = [0]) (hsd : d.scatterDimsToOperandDims = [0])
    (hiv : d.indexVectorDim = 1) (idx : IVec (⟨2, ![m, 1]⟩ : Shape) w) :
    ∃ tgt : Fin m → Option (Fin n), ∀ (x : (⟨2, ![n, c]⟩ : Shape).Idx → EReal) (u : (⟨2, ![m, c]⟩ : Shape).Idx → EReal)
        (p : Fin n) (k : Fin c),
      Ideal.hostScatterAdd d x idx u (ix2 p k)
        = x (ix2 p k) + ∑ e ∈ Finset.univ.filter (fun e => tgt e = some p), u (ix2 e k) := by
  obtain ⟨uw, iw, sd, iv, wf⟩ := d
  simp only at huw hiw hsd hiv
  subst huw hiw hsd hiv
  generalize hD : (⟨[1], [0], [0], 1, wf⟩ :
    ScatterDims (⟨2, ![n, c]⟩ : Shape) (⟨2, ![m, 1]⟩ : Shape) (⟨2, ![m, c]⟩ : Shape)) = D
  have hstart0 : ∀ (e : Fin m) (k' : Fin c), D.start (ix2 e k') idx 0 = (idx (ix2 e 0)).toInt := by
    intro e k'
    subst hD
    unfold ScatterDims.start
    rw [dif_pos (List.mem_singleton.mpr rfl)]
    congr 2
    funext b; refine Fin.ext ?_
    match b with
    | ⟨0, _⟩ => rfl
    | ⟨1, _⟩ => rfl
  have hstart1 : ∀ (e : Fin m) (k' : Fin c), D.start (ix2 e k') idx 1 = 0 := by
    intro e k'
    subst hD
    unfold ScatterDims.start
    rw [dif_neg (fun h => absurd (Fin.val_eq_of_eq (List.mem_singleton.mp h)) Nat.one_ne_zero)]
  have hwin0 : ∀ (e : Fin m) (k' : Fin c), D.window (ix2 e k') 0 = 0 := by
    intro e k'
    subst hD
    unfold ScatterDims.window
    rw [dif_neg]
    intro h
    simp [ScatterDims.sKept, Shape.kept] at h
  have hwin1 : ∀ (e : Fin m) (k' : Fin c), D.window (ix2 e k') 1 = k'.val := by
    intro e k'
    subst hD
    rfl
  obtain ⟨tgt, htgt⟩ : ∃ tgt : Fin m → Option (Fin n), ∀ e, tgt e =
      if h : 0 ≤ (idx (ix2 e 0)).toInt ∧ (idx (ix2 e 0)).toInt < (n : Int) then
        some (⟨(idx (ix2 e 0)).toInt.toNat, by omega⟩ : Fin n) else none := ⟨_, fun _ => rfl⟩
  refine ⟨tgt, ?_⟩
  intro x u p k
  have hsz0 : ((⟨2, ![n, c]⟩ : Shape).size 0 : Int) = (n : Int) := rfl
  have hsz1 : ((⟨2, ![n, c]⟩ : Shape).size 1 : Int) = (c : Int) := rfl
  have key : ∀ (e : Fin m) (k' : Fin c), D.resultIdx? (ix2 e k') idx = some (ix2 p k) ↔
      (tgt e = some p ∧ k' = k) := by
    intro e k'
    rw [htgt]
    unfold ScatterDims.resultIdx?
    by_cases h : 0 ≤ (idx (ix2 e 0)).toInt ∧ (idx (ix2 e 0)).toInt < (n : Int)
    · have hall : ∀ a, 0 ≤ D.start (ix2 e k') idx a + D.window (ix2 e k') a ∧
          D.start (ix2 e k') idx a + D.window (ix2 e k') a < ((⟨2, ![n, c]⟩ : Shape).size a : Int) := by
        intro a
        match a with
        | ⟨0, _⟩ =>
          show 0 ≤ D.start (ix2 e k') idx 0 + D.window (ix2 e k') 0 ∧
            D.start (ix2 e k') idx 0 + D.window (ix2 e k') 0 < ((⟨2, ![n, c]⟩ : Shape).size 0 : Int)
          rw [hstart0, hwin0, hsz0]
          omega
        | ⟨1, _⟩ =>
          show 0 ≤ D.start (ix2 e k') idx 1 + D.window (ix2 e k') 1 ∧
            D.start (ix2 e k') idx 1 + D.window (ix2 e k') 1 < ((⟨2, ![n, c]⟩ : Shape).size 1 : Int)
          rw [hstart1, hwin1, hsz1]
          have := k'.isLt
          omega
      rw [dif_pos hall, dif_pos h, Option.some.injEq, Option.some.injEq]
      constructor
      · intro hf
        have h0 : (D.start (ix2 e k') idx 0 + (D.window (ix2 e k') 0 : Int)).toNat = p.val :=
          congrArg (fun f => (f 0).val) hf
        have h1 : (D.start (ix2 e k') idx 1 + (D.window (ix2 e k') 1 : Int)).toNat = k.val :=
          congrArg (fun f => (f 1).val) hf
        rw [hstart0, hwin0] at h0
        rw [hstart1, hwin1] at h1
        refine ⟨Fin.ext ?_, Fin.ext ?_⟩
        · show (idx (ix2 e 0)).toInt.toNat = p.val
          omega
        · omega
      · rintro ⟨hp, hk⟩
        have hp' : (idx (ix2 e 0)).toInt.toNat = p.val := congrArg Fin.val hp
        funext a
        refine Fin.ext ?_
        match a with
        | ⟨0, _⟩ =>
          show (D.start (ix2 e k') idx 0 + (D.window (ix2 e k') 0 : Int)).toNat = p.val
          rw [hstart0, hwin0]
          omega
        | ⟨1, _⟩ =>
          show (D.start (ix2 e k') idx 1 + (D.window (ix2 e k') 1 : Int)).toNat = k.val
          rw [hstart1, hwin1, hk]
          omega
    · have hnall : ¬ ∀ a, 0 ≤ D.start (ix2 e k') idx a + D.window (ix2 e k') a ∧
          D.start (ix2 e k') idx a + D.window (ix2 e k') a < ((⟨2, ![n, c]⟩ : Shape).size a : Int) := by
        intro hall
        have h0 := hall 0
        rw [hstart0, hwin0, hsz0] at h0
        exact h (by omega)
      rw [dif_neg hnall, dif_neg h]
      constructor
      · intro hf; cases hf
      · rintro ⟨hf, _⟩; cases hf
  unfold Ideal.hostScatterAdd
  refine congrArg (x (ix2 p k) + ·) ?_
  rw [Finset.sum_filter, Finset.sum_filter, sum_idx2]
  refine Finset.sum_congr rfl (fun e _ => ?_)
  by_cases ht : tgt e = some p
  · rw [if_pos ht, Finset.sum_eq_single k]
    · rw [if_pos ((key e k).mpr ⟨ht, rfl⟩)]
    · intro k' _ hk'
      rw [if_neg (fun hh => hk' ((key e k').mp hh).2)]
    · intro hh
      exact absurd (Finset.mem_univ k) hh
  · rw [if_neg ht]
    refine Finset.sum_eq_zero (fun k' _ => ?_)
    rw [if_neg (fun hh => ht ((key e k').mp hh).1)]

end Cert.Lib.RowScatter
-- ==== Proof.LibRealPatterns.lean ====
/-
  Float patterns and finite sums as real numbers inside the extended reals.

  An IEEE-style pattern whose exponent field is not all ones denotes a real number, and a positive one when moreover
  its sign bit is clear and its exponent field is not zero (a normal number). The inclusion of the reals into the
  extended reals commutes with finite sums and with the maximum, so an expression built from real entries by sums,
  products and maxima is again the inclusion of a real.
-/
import Idealize.ShloMosaic.PureOps.Ideal
import Mathlib.Algebra.BigOperators.Fin

noncomputable section

namespace Cert.Lib.RealPatterns

open Idealize.ShloMosaic

/-- The inclusion of the reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals commutes with the maximum. -/
theorem coe_max (a b : ℝ) : ((max a b : ℝ) : EReal) = max (a : EReal) (b : EReal) :=
  EReal.coe_strictMono.monotone.map_max

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A pattern with sign bit clear and exponent field neither zero nor all ones denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  refine ⟨_, ?_, rfl⟩
  simp only [Bool.false_eq_true, if_false, one_mul]
  positivity

end Cert.Lib.RealPatterns

end
-- ==== Proof.GcnAlgebra.lean ====
/-
  The graph-convolution layer commutes with the dense product, on real entries.

  One layer aggregates, for every node n, the rows of an array v over the edges that end at n, each weighted by the
  edge's normalisation coefficient, and adds the node's own row weighted by its self coefficient:
      agg v (n, k) = (0 + Σ_{e → n} N(e) · v(src e, k)) + S(n) · v(n, k).
  The gather reads whole rows and the scatter-add sums whole rows, so the column k passes through both unchanged. When
  every coefficient and every entry is a real number, multiplying on the right by a 64×64 matrix w commutes with the
  aggregation (finite sums of reals distribute):
      Σₖ agg v (n,k) · w(k,j) = agg (v · w) (n,j),
  hence relu((agg v) · w) = relu(agg (v · w)), and the common value is again an array of reals. Over the extended reals
  this fails at infinite coefficients, which is why realness is assumed.
-/
import proofs.«111922_j13589276524780_1_alg».proof.Proof.Gen.ReferenceIdeal.Read
import proofs.«111922_j13589276524780_1_alg».proof.Proof.LibRowScatter
import proofs.«111922_j13589276524780_1_alg».proof.Proof.LibDotEntry
import proofs.«111922_j13589276524780_1_alg».proof.Proof.LibMatDims
import proofs.«111922_j13589276524780_1_alg».proof.Proof.LibRealPatterns
import proofs.«111922_j13589276524780_1_alg».proof.Proof.GcnSpec
import Idealize.ShloMosaic.Lib.ValueIdx
import Idealize.ShloMosaic.Lib.Pipeline.Value

noncomputable section

namespace Cert.Gcn

open Idealize.ShloMosaic Idealize.ShloMosaic.ValueIdx Cert.ReferenceIdeal Cert.ReferenceIdeal.Gen

/-- The core identity over the reals, written with the inclusions into the extended reals in place: a weighted sum of
    rows plus a weighted row, times a column, is the same combination of the rows' products with the column. -/
theorem real_core {E : Type} (T : Finset E) (c : E → ℝ) (s : ℝ) (vr : E → Fin 64 → ℝ) (vn : Fin 64 → ℝ)
    (wj : Fin 64 → ℝ) :
    (∑ k : Fin 64, (((0 : EReal) + ∑ e ∈ T, ((c e : ℝ) : EReal) * ((vr e k : ℝ) : EReal))
        + ((s : ℝ) : EReal) * ((vn k : ℝ) : EReal)) * ((wj k : ℝ) : EReal))
      = (((0 : EReal) + ∑ e ∈ T, ((c e : ℝ) : EReal) * ∑ k : Fin 64, ((vr e k : ℝ) : EReal) * ((wj k : ℝ) : EReal))
        + ((s : ℝ) : EReal) * ∑ k : Fin 64, ((vn k : ℝ) : EReal) * ((wj k : ℝ) : EReal))
      ∧ ∃ R : ℝ, (((0 : EReal) + ∑ e ∈ T, ((c e : ℝ) : EReal) * ∑ k : Fin 64, ((vr e k : ℝ) : EReal) * ((wj k : ℝ) : EReal))
        + ((s : ℝ) : EReal) * ∑ k : Fin 64, ((vn k : ℝ) : EReal) * ((wj k : ℝ) : EReal)) = ((R : ℝ) : EReal) := by
  have hL : (∑ k : Fin 64, (((0 : EReal) + ∑ e ∈ T, ((c e : ℝ) : EReal) * ((vr e k : ℝ) : EReal))
        + ((s : ℝ) : EReal) * ((vn k : ℝ) : EReal)) * ((wj k : ℝ) : EReal))
      = ((∑ k : Fin 64, ((0 + ∑ e ∈ T, c e * vr e k) + s * vn k) * wj k : ℝ) : EReal) := by
    rw [← Cert.Lib.RealPatterns.coe_sum]
    refine Finset.sum_congr rfl fun k _ => ?_
    rw [EReal.coe_mul, EReal.coe_add, EReal.coe_add, EReal.coe_mul, ← Cert.Lib.RealPatterns.coe_sum, EReal.coe_zero]
    simp only [EReal.coe_mul]
  have hR : (((0 : EReal) + ∑ e ∈ T, ((c e : ℝ) : EReal) * ∑ k : Fin 64, ((vr e k : ℝ) : EReal) * ((wj k : ℝ) : EReal))
        + ((s : ℝ) : EReal) * ∑ k : Fin 64, ((vn k : ℝ) : EReal) * ((wj k : ℝ) : EReal))
      = (((0 + ∑ e ∈ T, c e * ∑ k : Fin 64, vr e k * wj k) + s * ∑ k : Fin 64, vn k * wj k : ℝ) : EReal) := by
    rw [EReal.coe_add, EReal.coe_add, EReal.coe_mul, ← Cert.Lib.RealPatterns.coe_sum, ← Cert.Lib.RealPatterns.coe_sum,
      EReal.coe_zero]
    simp only [EReal.coe_mul, ← Cert.Lib.RealPatterns.coe_sum]
  refine ⟨?_, _, hR⟩
  rw [hL, hR]
  refine congrArg _ ?_
  simp only [zero_add, add_mul, Finset.sum_add_distrib, Finset.sum_mul, Finset.mul_sum]
  rw [Finset.sum_comm]
  refine congrArg₂ (· + ·) (Finset.sum_congr rfl fun e _ => Finset.sum_congr rfl fun k _ => by ring)
    (Finset.sum_congr rfl fun k _ => by ring)

end Cert.Gcn

end
-- ==== Proof.GcnLayer.lean ====
/-
  One graph-convolution layer read at an entry, and the law that joins the two programs.

  The aggregation of a layer is agg v (n, k) = (0 + Σ_{e → n} N(e) · v(src e, k)) + S(n) · v(n, k): the gather reads whole
  rows and the scatter-add sums whole rows, so the column passes through unchanged. With real coefficients and real
  entries, multiplying on the right by a 64×64 matrix commutes with the aggregation.
-/
import proofs.«111922_j13589276524780_1_alg».proof.Proof.GcnAlgebra

noncomputable section

namespace Cert.Gcn

open Idealize.ShloMosaic Idealize.ShloMosaic.ValueIdx Cert.ReferenceIdeal Cert.ReferenceIdeal.Gen

/-! ## The layer's pieces read at an entry -/

/-- The all-zero 100000×64 array both programs scatter into and rectify against. -/
abbrev zeros : FVec Ideal S100000x64 .f32 :=
  broadcastInDim S100000x64 ![] bcast_S_S100000x64 (constant (F := Ideal) S_ .f32 0x00000000#32)

theorem zeros_apply (i : S100000x64.Idx) : zeros i = 0 := by
  unfold zeros
  rw [broadcastInDim_apply _ bcast_S_S100000x64 _ i ix0 (fun a => a.elim0)]
  exact Ideal.ofBits_zero_f32

/-- An edge coefficient laid out along a row of 64 columns: entry (e, k) is the coefficient of edge e. -/
theorem bcast_edge (N : FVec Ideal S1600000 .f32) (e : Fin 1600000) (k : Fin 64) :
    broadcastInDim S1600000x64 ![0, 1] bcast_S1600000x1_S1600000x64_0_1
      (broadcastInDim S1600000x1 ![0] bcast_S1600000_S1600000x1_0 N) (ix2 e k) = N (ix1 e) := by
  rw [broadcastInDim_apply _ bcast_S1600000x1_S1600000x64_0_1 _ (ix2 e k) (ix2 e (0 : Fin 1)) (fun a => match a with
      | ⟨0, _⟩ => by show e.val = if (1600000 : Nat) = 1 then 0 else e.val; rw [if_neg (by decide)]
      | ⟨1, _⟩ => by show 0 = if (1 : Nat) = 1 then 0 else k.val; rw [if_pos rfl])]
  exact broadcastInDim_apply _ bcast_S1600000_S1600000x1_0 N (ix2 e (0 : Fin 1)) (ix1 e) (fun a => match a with
      | ⟨0, _⟩ => by show e.val = if (1600000 : Nat) = 1 then 0 else e.val; rw [if_neg (by decide)])

/-- A node coefficient laid out along a row of 64 columns: entry (n, k) is the coefficient of node n. -/
theorem bcast_node (S : FVec Ideal S100000 .f32) (n : Fin 100000) (k : Fin 64) :
    broadcastInDim S100000x64 ![0, 1] bcast_S100000x1_S100000x64_0_1
      (broadcastInDim S100000x1 ![0] bcast_S100000_S100000x1_0 S) (ix2 n k) = S (ix1 n) := by
  rw [broadcastInDim_apply _ bcast_S100000x1_S100000x64_0_1 _ (ix2 n k) (ix2 n (0 : Fin 1)) (fun a => match a with
      | ⟨0, _⟩ => by show n.val = if (100000 : Nat) = 1 then 0 else n.val; rw [if_neg (by decide)]
      | ⟨1, _⟩ => by show 0 = if (1 : Nat) = 1 then 0 else k.val; rw [if_pos rfl])]
  exact broadcastInDim_apply _ bcast_S100000_S100000x1_0 S (ix2 n (0 : Fin 1)) (ix1 n) (fun a => match a with
      | ⟨0, _⟩ => by show n.val = if (100000 : Nat) = 1 then 0 else n.val; rw [if_neg (by decide)])

/-- The aggregation of one layer: scatter-add over the edges of the coefficient-weighted gathered rows, plus the
    self-weighted rows. -/
def agg (N : FVec Ideal S1600000 .f32) (S : FVec Ideal S100000 .f32) (src dst : IVec S1600000x1 32)
    (v : FVec Ideal S100000x64 .f32) : FVec Ideal S100000x64 .f32 :=
  addf (Host.scatterAdd scatter_S100000x64_S1600000x1_S1600000x64_1_0_0_1 zeros dst
      (mulf (broadcastInDim S1600000x64 ![0, 1] bcast_S1600000x1_S1600000x64_0_1
          (broadcastInDim S1600000x1 ![0] bcast_S1600000_S1600000x1_0 N))
        (Host.gather gather_S100000x64_S1600000x1_S1600000x64_1_0_n_n_0_1_164 v src)))
    (mulf (broadcastInDim S100000x64 ![0, 1] bcast_S100000x1_S100000x64_0_1
        (broadcastInDim S100000x1 ![0] bcast_S100000_S100000x1_0 S)) v)

/-- Rectification against the zero array. -/
def relu (v : FVec Ideal S100000x64 .f32) : FVec Ideal S100000x64 .f32 := maximumf v zeros

/-- The host's product with a 64×64 matrix. -/
def dot (v : FVec Ideal S100000x64 .f32) (w : FVec Ideal S64x64 .f32) : FVec Ideal S100000x64 .f32 :=
  Host.dotGeneral dot_S100000x64_S64x64_S100000x64_1_0_0_1_n_n none v w

theorem relu_apply (v : FVec Ideal S100000x64 .f32) (i : S100000x64.Idx) : relu v i = max (v i) 0 := by
  unfold relu
  rw [maximumf_apply, zeros_apply]

theorem dot_entry (v : FVec Ideal S100000x64 .f32) (w : FVec Ideal S64x64 .f32) (p : Fin 100000) (q : Fin 64) :
    dot v w (ix2 p q) = ∑ k : Fin 64, v (ix2 p k) * w (ix2 k q) :=
  Cert.Lib.DotEntry.dotGeneral_ix2 dot_S100000x64_S64x64_S100000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) v w p q

/-- At exact arithmetic the host's accumulating scatter is the exact sum. -/
theorem scatterAdd_exact (z : FVec Ideal S100000x64 .f32) (dst : IVec S1600000x1 32) (U : FVec Ideal S1600000x64 .f32)
    (i : S100000x64.Idx) :
    Host.scatterAdd scatter_S100000x64_S1600000x1_S1600000x64_1_0_0_1 z dst U i
      = Ideal.hostScatterAdd scatter_S100000x64_S1600000x1_S1600000x64_1_0_0_1 z dst U i := rfl

/-- Entry (n, k) of the aggregation, given the row map of the gather and the target map of the scatter. -/
theorem agg_entry (N : FVec Ideal S1600000 .f32) (S : FVec Ideal S100000 .f32) (src dst : IVec S1600000x1 32)
    (r : Fin 1600000 → Fin 100000) (tgt : Fin 1600000 → Option (Fin 100000))
    (hr : ∀ (x : S100000x64.Idx → EReal) (e : Fin 1600000) (k : Fin 64),
      Host.gather gather_S100000x64_S1600000x1_S1600000x64_1_0_n_n_0_1_164 x src (ix2 e k) = x (ix2 (r e) k))
    (ht : ∀ (x : S100000x64.Idx → EReal) (u : S1600000x64.Idx → EReal) (p : Fin 100000) (k : Fin 64),
      Ideal.hostScatterAdd scatter_S100000x64_S1600000x1_S1600000x64_1_0_0_1 x dst u (ix2 p k)
        = x (ix2 p k) + ∑ e ∈ Finset.univ.filter (fun e => tgt e = some p), u (ix2 e k))
    (u : FVec Ideal S100000x64 .f32) (n : Fin 100000) (k : Fin 64) :
    agg N S src dst u (ix2 n k)
      = ((0 : EReal) + ∑ e ∈ Finset.univ.filter (fun e => tgt e = some n), N (ix1 e) * u (ix2 (r e) k))
        + S (ix1 n) * u (ix2 n k) := by
  unfold agg
  rw [addf_apply, mulf_apply, bcast_node]
  refine congrArg (· + S (ix1 n) * u (ix2 n k)) ?_
  rw [scatterAdd_exact, ht, zeros_apply]
  refine congrArg ((0 : EReal) + ·) (Finset.sum_congr rfl fun e _ => ?_)
  rw [mulf_apply, bcast_edge, hr]

/-- THE LAW. With real coefficients and real entries, aggregating and then multiplying by w and rectifying is
    multiplying by w, then aggregating and rectifying; and the result is an array of reals. -/
theorem layer_agg (N : FVec Ideal S1600000 .f32) (S : FVec Ideal S100000 .f32) (src dst : IVec S1600000x1 32)
    (v : FVec Ideal S100000x64 .f32) (w : FVec Ideal S64x64 .f32)
    (hN : ∀ e, ∃ r : ℝ, N e = (r : EReal)) (hS : ∀ n, ∃ r : ℝ, S n = (r : EReal))
    (hv : ∀ i, ∃ r : ℝ, v i = (r : EReal)) (hw : ∀ i, ∃ r : ℝ, w i = (r : EReal)) :
    layer (agg N S src dst v) w = relu (agg N S src dst (dot v w))
      ∧ ∀ i, ∃ r : ℝ, relu (agg N S src dst (dot v w)) i = (r : EReal) := by
  choose N' hN' using hN
  choose S' hS' using hS
  choose v' hv' using hv
  choose w' hw' using hw
  obtain ⟨r, hr⟩ := Cert.Lib.RowScatter.gather_rows (α := EReal)
    gather_S100000x64_S1600000x1_S1600000x64_1_0_n_n_0_1_164 rfl rfl rfl rfl rfl rfl src
  obtain ⟨tgt, ht⟩ := Cert.Lib.RowScatter.scatterAdd_rows
    scatter_S100000x64_S1600000x1_S1600000x64_1_0_0_1 rfl rfl rfl rfl dst
  have key : ∀ (n : Fin 100000) (j : Fin 64),
      layer (agg N S src dst v) w (ix2 n j) = relu (agg N S src dst (dot v w)) (ix2 n j)
        ∧ ∃ R : ℝ, relu (agg N S src dst (dot v w)) (ix2 n j) = (R : EReal) := by
    intro n j
    obtain ⟨hc1, R, hR⟩ := real_core (Finset.univ.filter (fun e => tgt e = some n)) (fun e => N' (ix1 e)) (S' (ix1 n))
      (fun e k => v' (ix2 (r e) k)) (fun k => v' (ix2 n k)) (fun k => w' (ix2 k j))
    have hdot : ∀ p : Fin 100000,
        dot v w (ix2 p j) = ∑ k : Fin 64, ((v' (ix2 p k) : ℝ) : EReal) * ((w' (ix2 k j) : ℝ) : EReal) := by
      intro p
      rw [dot_entry]
      exact Finset.sum_congr rfl fun k _ => by rw [hv', hw']
    have hl : layer (agg N S src dst v) w (ix2 n j)
        = max (∑ k : Fin 64, (((0 : EReal) + ∑ e ∈ Finset.univ.filter (fun e => tgt e = some n),
            ((N' (ix1 e) : ℝ) : EReal) * ((v' (ix2 (r e) k) : ℝ) : EReal))
          + ((S' (ix1 n) : ℝ) : EReal) * ((v' (ix2 n k) : ℝ) : EReal)) * ((w' (ix2 k j) : ℝ) : EReal)) 0 := by
      rw [layer_ix2]
      refine congrArg (fun s => max s 0) (Finset.sum_congr rfl fun k _ => ?_)
      rw [agg_entry N S src dst r tgt hr ht v n k, hS', hv' (ix2 n k), hw' (ix2 k j)]
      refine congrArg (fun s => (((0 : EReal) + s) + ((S' (ix1 n) : ℝ) : EReal) * ((v' (ix2 n k) : ℝ) : EReal))
        * ((w' (ix2 k j) : ℝ) : EReal)) (Finset.sum_congr rfl fun e _ => ?_)
      rw [hN', hv']
    have hrr : relu (agg N S src dst (dot v w)) (ix2 n j)
        = max (((0 : EReal) + ∑ e ∈ Finset.univ.filter (fun e => tgt e = some n),
            ((N' (ix1 e) : ℝ) : EReal) * ∑ k : Fin 64, ((v' (ix2 (r e) k) : ℝ) : EReal) * ((w' (ix2 k j) : ℝ) : EReal))
          + ((S' (ix1 n) : ℝ) : EReal) * ∑ k : Fin 64, ((v' (ix2 n k) : ℝ) : EReal) * ((w' (ix2 k j) : ℝ) : EReal)) 0 := by
      rw [relu_apply, agg_entry N S src dst r tgt hr ht (dot v w) n j, hS', hdot n]
      refine congrArg (fun s => max (((0 : EReal) + s) + ((S' (ix1 n) : ℝ) : EReal)
        * ∑ k : Fin 64, ((v' (ix2 n k) : ℝ) : EReal) * ((w' (ix2 k j) : ℝ) : EReal)) 0) (Finset.sum_congr rfl fun e _ => ?_)
      rw [hN', hdot]
    refine ⟨by rw [hl, hrr, hc1], max R 0, ?_⟩
    rw [hrr, hR, Cert.Lib.RealPatterns.coe_max, EReal.coe_zero]
  refine ⟨funext fun i => ?_, fun i => ?_⟩
  · obtain ⟨n, j, rfl⟩ : ∃ (n : Fin 100000) (j : Fin 64), i = ix2 n j := ⟨i 0, i 1, eq_ix2 i⟩
    exact (key n j).1
  · obtain ⟨n, j, rfl⟩ : ∃ (n : Fin 100000) (j : Fin 64), i = ix2 n j := ⟨i 0, i 1, eq_ix2 i⟩
    exact (key n j).2

/-! ## The two layers -/

/-- The source rows as a column of row indices, negative indices wrapped once by the number of nodes. -/
def srcCol (i1 : IVec S1600000 32) : IVec S1600000x1 32 :=
  broadcastInDim S1600000x1 ![0] bcast_S1600000_S1600000x1_0
    (select (cmpi .slt i1 (broadcastInDim S1600000 ![] bcast_S_S1600000 (constantI S_ 32 0#32)))
      (addi i1 (broadcastInDim S1600000 ![] bcast_S_S1600000 (constantI S_ 32 100000#32))) i1)

/-- The target rows as a column of row indices. -/
def dstCol (i3 : IVec S1600000 32) : IVec S1600000x1 32 :=
  broadcastInDim S1600000x1 ![0] bcast_S1600000_S1600000x1_0 i3

/-- Two stacked layers: aggregating before each dense product (as the kernel program does) or after it (as the
    reference does) gives the same array, when the coefficients, the features and both weight matrices are real. -/
theorem two_layers (N : FVec Ideal S1600000 .f32) (S : FVec Ideal S100000 .f32) (src dst : IVec S1600000x1 32)
    (x : FVec Ideal S100000x64 .f32) (W0 W1 : FVec Ideal S64x64 .f32)
    (hN : ∀ e, ∃ r : ℝ, N e = (r : EReal)) (hS : ∀ n, ∃ r : ℝ, S n = (r : EReal))
    (hx : ∀ i, ∃ r : ℝ, x i = (r : EReal)) (hW0 : ∀ i, ∃ r : ℝ, W0 i = (r : EReal))
    (hW1 : ∀ i, ∃ r : ℝ, W1 i = (r : EReal)) :
    layer (agg N S src dst (layer (agg N S src dst x) W0)) W1
      = relu (agg N S src dst (dot (relu (agg N S src dst (dot x W0))) W1)) := by
  obtain ⟨h1, hr1⟩ := layer_agg N S src dst x W0 hN hS hx hW0
  rw [h1]
  exact (layer_agg N S src dst _ W1 hN hS hr1 hW1).1

end Cert.Gcn

end
-- ==== Proof.KValue.lean ====
/-
  The idealized kernel program's result as a function of its arguments.

  Reading the boundary contents backwards: the result is the second launch's output, relu(a₂ · W₁), where a₂ is the
  aggregation (by the host operations between the launches) of the first launch's output relu(a₁ · W₀), and a₁ the
  aggregation (by the host operations before the first launch) of the input features. The edge coefficients, the node
  coefficients and the two index arrays are computed once, before the first launch, from the edge list and the edge
  weights, and reused after it.
-/
import proofs.«111922_j13589276524780_1_alg».proof.Proof.KArray
import proofs.«111922_j13589276524780_1_alg».proof.Proof.KRun
import proofs.«111922_j13589276524780_1_alg».proof.Proof.GcnLayer
import Idealize.ShloMosaic.Lib.StableHlo.Run

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen
open Cert.Gcn (agg layer srcCol dstCol)
open Cert.ReferenceIdeal.Read (val_main_v1 val_main_v3 val_main_v26 val_main_v40)

/-! ## The host operations between the launches, from any contents -/

set_option maxHeartbeats 4000000 in
/-- The second launch's input is the aggregation of the first launch's output, with the coefficients and index
    arrays found in the buffers the first stretch of host operations left them in. -/
theorem after1_v61 (W : Valuation τ sig (Elt Ideal)) :
    StableHlo.after (hostOps1 (F := Ideal)) W (Proc.devRef .tc main_v61)
      = agg (W (Proc.devRef .tc main_v25)) (W (Proc.devRef .tc main_v26)) (srcCol (W (Proc.devRef .tc main_v1)))
          (dstCol (W (Proc.devRef .tc main_v3))) (W (Proc.devRef .tc main_v44)) := by
  dsimp only [hostOps1]
  after_results
  rfl

/-! ## The host operations before the first launch, from any contents -/

set_option maxHeartbeats 8000000 in
/-- The source node of every edge. -/
theorem after0_v1 (W : Valuation τ sig (Elt Ideal)) :
    StableHlo.after (hostOps0 (F := Ideal)) W (Proc.devRef .tc main_v1)
      = val_main_v1 (F := Ideal) (W (Proc.devRef .tc main_arg1)) := by
  dsimp only [hostOps0]
  after_results
  rfl

set_option maxHeartbeats 8000000 in
/-- The target node of every edge. -/
theorem after0_v3 (W : Valuation τ sig (Elt Ideal)) :
    StableHlo.after (hostOps0 (F := Ideal)) W (Proc.devRef .tc main_v3)
      = val_main_v3 (F := Ideal) (W (Proc.devRef .tc main_arg1)) := by
  dsimp only [hostOps0]
  after_results
  rfl

set_option maxHeartbeats 8000000 in
/-- The edge coefficients. -/
theorem after0_v25 (W : Valuation τ sig (Elt Ideal)) :
    StableHlo.after (hostOps0 (F := Ideal)) W (Proc.devRef .tc main_v25)
      = val_main_v26 (F := Ideal) (W (Proc.devRef .tc main_arg1)) (W (Proc.devRef .tc main_arg2)) := by
  dsimp only [hostOps0]
  after_results
  rfl

set_option maxHeartbeats 8000000 in
/-- The nodes' self coefficients. -/
theorem after0_v26 (W : Valuation τ sig (Elt Ideal)) :
    StableHlo.after (hostOps0 (F := Ideal)) W (Proc.devRef .tc main_v26)
      = val_main_v40 (F := Ideal) (W (Proc.devRef .tc main_arg1)) (W (Proc.devRef .tc main_arg2)) := by
  dsimp only [hostOps0]
  after_results
  rfl

set_option maxHeartbeats 8000000 in
/-- The first launch's input is the aggregation of the input features. -/
theorem after0_v43 (W : Valuation τ sig (Elt Ideal)) :
    StableHlo.after (hostOps0 (F := Ideal)) W (Proc.devRef .tc main_v43)
      = agg (val_main_v26 (F := Ideal) (W (Proc.devRef .tc main_arg1)) (W (Proc.devRef .tc main_arg2)))
          (val_main_v40 (F := Ideal) (W (Proc.devRef .tc main_arg1)) (W (Proc.devRef .tc main_arg2)))
          (srcCol (val_main_v1 (F := Ideal) (W (Proc.devRef .tc main_arg1))))
          (dstCol (val_main_v3 (F := Ideal) (W (Proc.devRef .tc main_arg1)))) (W (Proc.devRef .tc main_arg0)) := by
  dsimp only [hostOps0]
  after_results
  rfl

set_option maxHeartbeats 8000000 in
/-- The first weight matrix is not written. -/
theorem after0_arg3 (W : Valuation τ sig (Elt Ideal)) :
    StableHlo.after (hostOps0 (F := Ideal)) W (Proc.devRef .tc main_arg3) = W (Proc.devRef .tc main_arg3) := by
  dsimp only [hostOps0]
  after_results

end Cert.KernelIdeal.Named

end
-- ==== Proof.RefValue.lean ====
/-
  The idealized reference's result as a function of its arguments: two stacked layers, each the dense product first,
  then the aggregation over the edges and the rectification. The second layer recomputes the edge coefficients, the
  self coefficients and the index columns with the same operations of the same arguments as the first.
-/
import proofs.«111922_j13589276524780_1_alg».proof.Proof.Gen.ReferenceIdeal.Read
import proofs.«111922_j13589276524780_1_alg».proof.Proof.GcnLayer

set_option maxRecDepth 16384

noncomputable section

namespace Cert.Gcn

open Idealize.ShloMosaic Cert.ReferenceIdeal Cert.ReferenceIdeal.Gen Cert.ReferenceIdeal.Read

variable (x0 : FVec Ideal S100000x64 .f32) (x1 : IVec S2x1600000 32) (x2 : FVec Ideal S1600000 .f32)
  (x3 x4 : FVec Ideal S64x64 .f32)

/-- Two stacked layers with the aggregation BEFORE each dense product (the kernel program's arrangement). -/
def kernelForm : FVec Ideal S100000x64 .f32 :=
  layer (agg (val_main_v26 (F := Ideal) x1 x2) (val_main_v40 (F := Ideal) x1 x2)
      (srcCol (val_main_v1 (F := Ideal) x1)) (dstCol (val_main_v3 (F := Ideal) x1))
      (layer (agg (val_main_v26 (F := Ideal) x1 x2) (val_main_v40 (F := Ideal) x1 x2)
        (srcCol (val_main_v1 (F := Ideal) x1)) (dstCol (val_main_v3 (F := Ideal) x1)) x0) x3)) x4

/-- Two stacked layers with the aggregation AFTER each dense product (the reference's arrangement). -/
def refForm : FVec Ideal S100000x64 .f32 :=
  relu (agg (val_main_v26 (F := Ideal) x1 x2) (val_main_v40 (F := Ideal) x1 x2)
      (srcCol (val_main_v1 (F := Ideal) x1)) (dstCol (val_main_v3 (F := Ideal) x1))
      (dot (relu (agg (val_main_v26 (F := Ideal) x1 x2) (val_main_v40 (F := Ideal) x1 x2)
        (srcCol (val_main_v1 (F := Ideal) x1)) (dstCol (val_main_v3 (F := Ideal) x1)) (dot x0 x3))) x4))

/-- The first layer's output. -/
theorem ref_layer1 :
    val_main_v45 (F := Ideal) x0 x1 x2 x3
      = relu (agg (val_main_v26 (F := Ideal) x1 x2) (val_main_v40 (F := Ideal) x1 x2)
          (srcCol (val_main_v1 (F := Ideal) x1)) (dstCol (val_main_v3 (F := Ideal) x1)) (dot x0 x3)) := rfl

/-- The reference's result. -/
theorem ref_result : val_main_v81 (F := Ideal) x0 x1 x2 x3 x4 = refForm x0 x1 x2 x3 x4 := rfl

end Cert.Gcn

end
-- ==== Proof.KResult.lean ====
/-
  The idealized kernel program's result, assembled: the last boundary's contents of the result buffer are two stacked
  layers, each aggregating first and multiplying by its weight matrix after, of the five argument arrays.
-/
import proofs.«111922_j13589276524780_1_alg».proof.Proof.KValue
import proofs.«111922_j13589276524780_1_alg».proof.Proof.RefValue

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen
open Cert.Gcn (agg layer srcCol dstCol kernelForm)
open Cert.ReferenceIdeal.Read (val_main_v1 val_main_v3 val_main_v26 val_main_v40)

variable (m : (ℓ : Loc nD τ sig) → Buf (Elt Ideal) ℓ) (ρ : Dev nD → PrngReg)

set_option maxHeartbeats 4000000 in
theorem result_eq (c : Dev nD) :
    W4 m ρ c (Proc.devRef .tc main_v62)
      = kernelForm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have e4 : W4 m ρ c (Proc.devRef .tc main_v62) = layer (V3 m ρ c main_v61) (V3 m ρ c main_arg4) :=
    (W4_arr m ρ c 2).trans (Cert.KernelIdeal.Arrays.final1 (V3 m ρ) c)
  have e2 : W2 m ρ c (Proc.devRef .tc main_v44) = layer (V1 m ρ c main_v43) (V1 m ρ c main_arg3) :=
    (W2_arr m ρ c 2).trans (Cert.KernelIdeal.Arrays.final0 (V1 m ρ) c)
  have a4 : V3 m ρ c main_arg4 = m ((c.tc : Thread nD τ).loc main_arg4) :=
    ((W4_arr m ρ c 1).trans (((dat1 (V3 m ρ) c).arrAt_in 1 rfl _).trans (A_eq1 (V3 m ρ) c 1))).symm.trans
      (W4_main_arg4 m ρ c)
  have a3 : V1 m ρ c main_arg3 = m ((c.tc : Thread nD τ).loc main_arg3) := after0_arg3 (W0 m ρ c)
  have v61 : V3 m ρ c main_v61
      = agg (W2 m ρ c (Proc.devRef .tc main_v25)) (W2 m ρ c (Proc.devRef .tc main_v26))
          (srcCol (W2 m ρ c (Proc.devRef .tc main_v1))) (dstCol (W2 m ρ c (Proc.devRef .tc main_v3)))
          (W2 m ρ c (Proc.devRef .tc main_v44)) := after1_v61 (W2 m ρ c)
  have h25 : W2 m ρ c (Proc.devRef .tc main_v25)
      = val_main_v26 (F := Ideal) (m ((c.tc : Thread nD τ).loc main_arg1)) (m ((c.tc : Thread nD τ).loc main_arg2)) :=
    (W2_of_ne m ρ c main_v25 (by decide)).trans (after0_v25 (W0 m ρ c))
  have h26 : W2 m ρ c (Proc.devRef .tc main_v26)
      = val_main_v40 (F := Ideal) (m ((c.tc : Thread nD τ).loc main_arg1)) (m ((c.tc : Thread nD τ).loc main_arg2)) :=
    (W2_of_ne m ρ c main_v26 (by decide)).trans (after0_v26 (W0 m ρ c))
  have h1 : W2 m ρ c (Proc.devRef .tc main_v1) = val_main_v1 (F := Ideal) (m ((c.tc : Thread nD τ).loc main_arg1)) :=
    (W2_of_ne m ρ c main_v1 (by decide)).trans (after0_v1 (W0 m ρ c))
  have h3 : W2 m ρ c (Proc.devRef .tc main_v3) = val_main_v3 (F := Ideal) (m ((c.tc : Thread nD τ).loc main_arg1)) :=
    (W2_of_ne m ρ c main_v3 (by decide)).trans (after0_v3 (W0 m ρ c))
  have h43 : V1 m ρ c main_v43
      = agg (val_main_v26 (F := Ideal) (m ((c.tc : Thread nD τ).loc main_arg1)) (m ((c.tc : Thread nD τ).loc main_arg2)))
          (val_main_v40 (F := Ideal) (m ((c.tc : Thread nD τ).loc main_arg1)) (m ((c.tc : Thread nD τ).loc main_arg2)))
          (srcCol (val_main_v1 (F := Ideal) (m ((c.tc : Thread nD τ).loc main_arg1))))
          (dstCol (val_main_v3 (F := Ideal) (m ((c.tc : Thread nD τ).loc main_arg1))))
          (m ((c.tc : Thread nD τ).loc main_arg0)) := after0_v43 (W0 m ρ c)
  rw [e4, v61, a4, h25, h26, h1, h3, e2, h43, a3]
  rfl

end Cert.KernelIdeal.Named

end
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.PreFacts.lean ====
import proofs.«111922_j13589276524780_1_alg».proof.Defs
import proofs.«111922_j13589276524780_1_alg».proof.Proof.LibFiniteInputs
import Idealize.ShloMosaic.PureOps.Ideal.Laws

/-
  The precondition of the certificate, read back as facts about the input arrays.

  The precondition is a single bit: the conjunction of five bits. Four of them say, for one float input each, that
  every entry's absolute value lies strictly below +∞; the fifth says that every entry of the weighted in-degree
  plus one (the sum, over the edges that point at a node, of the edge weights, started from zero, then one added) is
  strictly above zero. A conjunction of bits that is one has every conjunct one; a reduction by conjunction into a
  single bit that is one has every element one; an absolute value below +∞ leaves a real number; and the comparison
  "above" against the all-zero pattern, which denotes the extended real 0, says 0 < x. So under the precondition the
  four float inputs are arrays of real numbers, and the in-degree plus one is positive at every node.
-/

noncomputable section

namespace Cert.PreFacts

open Idealize.ShloMosaic Cert.Pre_finite_inputs

/-- The comparison "above" that is one says the right operand lies strictly below the left one. -/
theorem lt_of_cmp_ogt (x y : EReal) (e : Ideal.cmp .ogt x y = 1#1) : y < x := by
  by_contra hn
  simp [Ideal.cmp, hn] at e

/-- One conjunct of the form "every entry is above zero": if the entrywise comparison of an array with the all-zero
    pattern broadcast to its shape, reduced by conjunction over all axes into one bit, is one, then every entry of
    the array is strictly positive. -/
theorem pos_of_all_gt_zero {s : Shape} {axes : List (Fin s.rank)} (d : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .ogt d (broadcastInDim s ![] bc (constant (F := Ideal) (⟨0, ![]⟩ : Shape) .f32 0x00000000#32)))
        init hr hu j = 1#1) :
    ∀ i, (0 : EReal) < d i := by
  intro i
  have hi := Host.reduce_andi_all _ init hr hu j e i
  have hi' : Ideal.cmp .ogt (d i) (Ideal.ofBits .f32 0x00000000#32) = 1#1 := hi
  rw [Ideal.ofBits_zero_f32] at hi'
  exact lt_of_cmp_ogt _ _ hi'

variable [Cert.Pre_finite_inputs.Facts]

/-- The weighted in-degree of every node plus one, spelt exactly as the precondition spells it: the edge weights
    summed into a zero array at the edges' target nodes (the second row of the edge list), plus the constant one. -/
def deg (a1 : IVec S2x1600000 32) (a2 : FVec Ideal S1600000 .f32) : FVec Ideal S100000 .f32 :=
  addf (Host.scatterAdd scatter_S100000_S1600000x1_S1600000_n_0_0_1
      (broadcastInDim S100000 ![] Facts.bcast_S_S100000 (constant (F := Ideal) S_ .f32 0x00000000#32))
      (broadcastInDim S1600000x1 ![0] Facts.bcast_S1600000_S1600000x1_0
        (shapeCast S1600000 (extractStridedSlice S1x1600000 ![1, 0] a1 Facts.slices_S2x1600000_S1x1600000_1_0) Facts.shapeCasts_S1x1600000_S1600000))
      a2)
    (broadcastInDim S100000 ![] Facts.bcast_S_S100000 (constant (F := Ideal) S_ .f32 0x3F800000#32))

/-- Under the precondition every entry of the four float inputs is a real number, and the weighted in-degree plus one
    is strictly positive at every node. -/
theorem of_pre (a0 : FVec Ideal S100000x64 .f32) (a1 : IVec S2x1600000 32) (a2 : FVec Ideal S1600000 .f32)
    (a3 a4 : FVec Ideal S64x64 .f32) (h : fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, (0 : EReal) < deg a1 a2 i) := by
  have h0 := congrFun h ValueIdx.ix0
  dsimp only [fn, fn_part1] at h0
  -- the conjunction of five bits is one: each of them is
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨?_, ?_, ?_, ?_, ?_⟩
  · exact Cert.Lib.FiniteInputs.real_of_all_lt_inf a0 Facts.bcast_S_S100000x64 Facts.reducesTo_S100000x64_S_d0_1
      Facts.h_S_ _ ValueIdx.ix0 h0'
  · exact Cert.Lib.FiniteInputs.real_of_all_lt_inf a2 Facts.bcast_S_S1600000 Facts.reducesTo_S1600000_S_d0
      Facts.h_S_ _ ValueIdx.ix0 h1
  · exact Cert.Lib.FiniteInputs.real_of_all_lt_inf a3 Facts.bcast_S_S64x64 Facts.reducesTo_S64x64_S_d0_1
      Facts.h_S_ _ ValueIdx.ix0 h2
  · exact Cert.Lib.FiniteInputs.real_of_all_lt_inf a4 Facts.bcast_S_S64x64 Facts.reducesTo_S64x64_S_d0_1
      Facts.h_S_ _ ValueIdx.ix0 h3
  · exact pos_of_all_gt_zero (deg a1 a2) Facts.bcast_S_S100000 Facts.reducesTo_S100000_S_d0 Facts.h_S_ _ ValueIdx.ix0 h4

end Cert.PreFacts

end
-- ==== Proof.Coeffs.lean ====
/-
  The normalisation coefficients are real numbers when every weighted in-degree plus one is positive.

  deg(n) = Σ_{e → n} weight(e) + 1 is positive by the precondition, so its reciprocal square root is a real number (the
  reciprocal square root of +∞ is 0, of a positive real r it is 1/√r). An edge's coefficient is
  rsqrt(deg(src e)) · weight(e) · rsqrt(deg(dst e)), a product of reals, and a node's self coefficient is
  rsqrt(deg n)², a real again. Which rows the two gathers read does not matter: every row is real.
-/
import proofs.«111922_j13589276524780_1_alg».proof.Proof.Gen.ReferenceIdeal.Read
import proofs.«111922_j13589276524780_1_alg».proof.Proof.PreFacts

noncomputable section

namespace Cert.Gcn

open Idealize.ShloMosaic Cert.ReferenceIdeal Cert.ReferenceIdeal.Gen Cert.ReferenceIdeal.Read

/-- The reciprocal square root of a positive extended real is a real number. -/
theorem rsqrt_real (x : EReal) (h : 0 < x) : ∃ r : ℝ, Ideal.rsqrt x = (r : EReal) := by
  induction x using EReal.rec with
  | bot => exact absurd h (by simp)
  | coe r =>
    have hr : 0 < r := by exact_mod_cast h
    refine ⟨(Real.sqrt r)⁻¹, ?_⟩
    rw [Ideal.rsqrt_coe, if_neg (not_lt.mpr hr.le), if_neg hr.ne']
  | top => exact ⟨0, by rw [Ideal.rsqrt_top]; rfl⟩

/-- A product of two reals, inside the extended reals, is a real. -/
theorem mul_real {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

variable (a1 : IVec S2x1600000 32) (a2 : FVec Ideal S1600000 .f32)

/-- Every node's reciprocal square root of its degree is real. -/
theorem dinv_real (hdeg : ∀ i, (0 : EReal) < val_main_v8 (F := Ideal) a1 a2 i) :
    ∀ i, ∃ r : ℝ, val_main_v9 (F := Ideal) a1 a2 i = (r : EReal) := fun i => by
  rw [val_main_v9_apply, Ideal.hostUnary_rsqrt_def]
  exact rsqrt_real _ (hdeg i)

/-- Every node's self coefficient is real. -/
theorem self_real (hdeg : ∀ i, (0 : EReal) < val_main_v8 (F := Ideal) a1 a2 i) :
    ∀ i, ∃ r : ℝ, val_main_v40 (F := Ideal) a1 a2 i = (r : EReal) := fun i => by
  rw [val_main_v40_apply, Ideal.mulf_def]
  exact mul_real (dinv_real a1 a2 hdeg i) (dinv_real a1 a2 hdeg i)

/-- Every edge's coefficient is real. -/
theorem norm_real (hdeg : ∀ i, (0 : EReal) < val_main_v8 (F := Ideal) a1 a2 i)
    (hw : ∀ i, ∃ r : ℝ, a2 i = (r : EReal)) :
    ∀ i, ∃ r : ℝ, val_main_v26 (F := Ideal) a1 a2 i = (r : EReal) := fun i => by
  rw [val_main_v26_apply, val_main_v18_apply, Ideal.mulf_def, Ideal.mulf_def]
  refine mul_real (mul_real ?_ (hw i)) ?_
  · unfold val_main_v17 Host.gather
    exact dinv_real a1 a2 hdeg _
  · unfold val_main_v25 Host.gather
    exact dinv_real a1 a2 hdeg _

end Cert.Gcn

end
-- ==== Proof.Bridge.lean ====
/-
  The two arrangements agree under the precondition.

  The precondition says that every feature, edge weight and weight-matrix entry is a real number and that every node's
  weighted in-degree plus one is positive. The second makes every normalisation coefficient real, and then the law of
  the layer applies twice.
-/
import proofs.«111922_j13589276524780_1_alg».proof.Proof.RefValue
import proofs.«111922_j13589276524780_1_alg».proof.Proof.Coeffs
import proofs.«111922_j13589276524780_1_alg».proof.Proof.PreFacts

set_option maxRecDepth 16384

noncomputable section

namespace Cert.Gcn

open Idealize.ShloMosaic Cert.ReferenceIdeal Cert.ReferenceIdeal.Gen Cert.ReferenceIdeal.Read

variable [Cert.Pre_finite_inputs.Facts]

/-- The degree the precondition speaks of is the degree both programs take the reciprocal square root of. -/
theorem deg_eq (x1 : IVec S2x1600000 32) (x2 : FVec Ideal S1600000 .f32) :
    Cert.PreFacts.deg x1 x2 = val_main_v8 (F := Ideal) x1 x2 := rfl

theorem forms_eq (x0 : FVec Ideal S100000x64 .f32) (x1 : IVec S2x1600000 32) (x2 : FVec Ideal S1600000 .f32)
    (x3 x4 : FVec Ideal S64x64 .f32)
    (h : Cert.Pre_finite_inputs.fn (F := Ideal) x0 x1 x2 x3 x4 = fun _ => 1#1) :
    kernelForm x0 x1 x2 x3 x4 = refForm x0 x1 x2 x3 x4 := by
  obtain ⟨h0, h2, h3, h4, hdeg⟩ := Cert.PreFacts.of_pre x0 x1 x2 x3 x4 h
  rw [deg_eq] at hdeg
  unfold kernelForm refForm
  exact two_layers _ _ _ _ x0 x3 x4 (norm_real x1 x2 hdeg h2) (self_real x1 x2 hdeg) h0 h3 h4

end Cert.Gcn

end
-- ==== Proof.lean ====
/-
  Two stacked graph-convolution layers without bias: the kernel program aggregates the input features over the edges
  first and applies the dense product and the rectification in a tiled launch; the reference applies the dense product
  first and aggregates after. The edge coefficients rsqrt(deg src) · weight · rsqrt(deg dst) and the self coefficients
  rsqrt(deg)² are computed alike by both, with deg the weighted in-degree plus one.

  Over the extended reals the two arrangements agree when every coefficient and entry is a real number (finite sums of
  reals distribute over a product), and differ at an infinite coefficient: a node of degree zero has reciprocal square
  root +∞, and (+∞)·a + (+∞)·b is not (+∞)·(a + b) when a and b have opposite signs. The precondition therefore asks,
  beside finite inputs, that every degree be positive, which is where the reference's own reciprocal square root is
  defined.

  The frames of the two kernel programs and the reference's run are generated; what the kernel program's result buffer
  ends holding is read off its frame run (a block of the output is the rectified product of the same block of rows of
  the input, and the ten blocks tile the array), and the law that joins the two arrangements is proved entry by entry.
-/
import proofs.«111922_j13589276524780_1_alg».proof.Defs
import proofs.«111922_j13589276524780_1_alg».proof.Proof.Gen.Kernel
import proofs.«111922_j13589276524780_1_alg».proof.Proof.Gen.Kernel.Frame
import proofs.«111922_j13589276524780_1_alg».proof.Proof.Gen.KernelIdeal
import proofs.«111922_j13589276524780_1_alg».proof.Proof.Gen.KernelIdeal.Frame
import proofs.«111922_j13589276524780_1_alg».proof.Proof.Gen.ReferenceIdeal
import proofs.«111922_j13589276524780_1_alg».proof.Proof.Gen.ReferenceIdeal.Run
import proofs.«111922_j13589276524780_1_alg».proof.Proof.Gen.ReferenceIdeal.Read
import proofs.«111922_j13589276524780_1_alg».proof.Proof.Gen.Pre_finite_inputs
import proofs.«111922_j13589276524780_1_alg».proof.Proof.KRun
import proofs.«111922_j13589276524780_1_alg».proof.Proof.KResult
import proofs.«111922_j13589276524780_1_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same array: the kernel program's result is the two layers with the aggregation before
    each product, the reference's the two layers with it after, of arguments that agree; under the precondition the
    two are one array. -/
theorem algebraic : Cert.algebraic_KernelIdeal_ReferenceIdeal := by
  intro m ρ m' ρ' hpre hagree
  refine ⟨fun c => Cert.Gcn.kernelForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Named.result_eq m ρ c), (h c).2⟩)
      (Cert.KernelIdeal.Named.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v81_eq, Cert.Gcn.ref_result, (hagree c).1, (hagree c).2.1,
      (hagree c).2.2.1, (hagree c).2.2.2.1, (hagree c).2.2.2.2]
    exact (Cert.Gcn.forms_eq _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
